-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S8192x512 .f32) (main_arg1 : FVec F S8192x512 .f32) (main_arg2 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S8192x512 : Shape := ⟨2, ![8192, 512]⟩
abbrev S512 : Shape := ⟨1, ![512]⟩
abbrev S_ : Shape := ⟨0, ![]⟩
abbrev S1x512 : Shape := ⟨2, ![1, 512]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x512 : Shape := ⟨2, ![1024, 512]⟩
abbrev S1024x1 : Shape := ⟨2, ![1024, 1]⟩
abbrev S1x1024 : Shape := ⟨2, ![1, 1024]⟩
abbrev S1024x1024 : Shape := ⟨2, ![1024, 1024]⟩
abbrev S256x512 : Shape := ⟨2, ![256, 512]⟩
abbrev S256x1 : Shape := ⟨2, ![256, 1]⟩
abbrev S256x1024 : Shape := ⟨2, ![256, 1024]⟩

abbrev nBuf : Space → Nat
  | .hbm => 25
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S_, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S8192x512, .f32⟩
  | .hbm, ⟨9, _⟩ => ⟨S8192x512, .f32⟩
  | .hbm, ⟨10, _⟩ => ⟨S1x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x512, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S1x8192, .f32⟩
  | .hbm, ⟨22, _⟩ => ⟨S8192x512, .bf16⟩
  | .hbm, ⟨23, _⟩ => ⟨S8192x512, .bf16⟩
  | .hbm, ⟨24, _⟩ => ⟨S8192x8192, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_mult1 : BitVec 32 :=
  let c0_i32 : BitVec 32 := 0#32
  let c256_i32 : BitVec 32 := 256#32
  let v4 : BitVec 32 := Scalar.muli c0_i32 c256_i32
  v4
def k0_off1 (c0_i32 : BitVec 32) : Fin 2 → Nat :=
  let c256_i32 : BitVec 32 := 256#32
  let v4 : BitVec 32 := Scalar.muli c0_i32 c256_i32
  let v5 : BitVec 32 := v4
  let v6 : Index := Scalar.indexCast v5
  let c0_3 : Index := 0#32
  ![v6.toNat, 0]
def k0_off2 (c0_i32 : BitVec 32) : Fin 2 → Nat :=
  let c256_i32 : BitVec 32 := 256#32
  let v4 : BitVec 32 := Scalar.muli c0_i32 c256_i32
  let v5 : BitVec 32 := v4
  let v9 : Index := Scalar.indexCast v5
  let c0_4 : Index := 0#32
  ![v9.toNat, 0]
def k0_off3 (c0_i32 : BitVec 32) : Fin 2 → Nat :=
  let c256_i32 : BitVec 32 := 256#32
  let v4 : BitVec 32 := Scalar.muli c0_i32 c256_i32
  let v5 : BitVec 32 := v4
  let v24 : Index := Scalar.indexCast v5
  let c0_8 : Index := 0#32
  ![v24.toNat, 0]
def k0_mult2 : BitVec 32 :=
  let c1_i32 : BitVec 32 := 1#32
  let c256_i32_9 : BitVec 32 := 256#32
  let v26 : BitVec 32 := Scalar.muli c1_i32 c256_i32_9
  v26
def k0_mult3 : BitVec 32 :=
  let c2_i32 : BitVec 32 := 2#32
  let c256_i32_17 : BitVec 32 := 256#32
  let v48 : BitVec 32 := Scalar.muli c2_i32 c256_i32_17
  v48
def k0_mult4 : BitVec 32 :=
  let c3_i32 : BitVec 32 := 3#32
  let c256_i32_25 : BitVec 32 := 256#32
  let v70 : BitVec 32 := Scalar.muli c3_i32 c256_i32_25
  v70
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S512 : S_.BroadcastsInDim S512 (![] : Fin 0 → Fin S512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  reducesTo_S8192x512_S8192_d1 : S8192x512.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  h_S256x512 : 0 < S256x512.numel
  shapeCasts_S256x512_S256x512 : S256x512.ShapeCasts S256x512
  h_S256x1 : 0 < S256x1.numel
  shapeCasts_S256x1_S256x1 : S256x1.ShapeCasts S256x1
  broadcasts_S256x1_S256x1024 : S256x1.Broadcasts S256x1024
  broadcasts_S1x1024_S256x1024 : S1x1024.Broadcasts S256x1024
  h_S256x1024 : 0 < S256x1024.numel
  dot_S256x512_S1024x512_S256x1024_1_1_0_0_n_n_wf : DotDims.WF S256x512 S1024x512 S256x1024 [1] [1] [0] [0] [] []
  hrank0 : 0 < grid0.rank
  k0_mult1_dvd : 8 ∣ k0_mult1.toNat
  k0_off1_inb : ∀ (r : Fin 4), ∀ a, (k0_off1 (BitVec.ofNat 32 r.val)) a + S256x512.size a ≤ S1024x512.size a
  k0_off2_inb : ∀ (r : Fin 4), ∀ a, (k0_off2 (BitVec.ofNat 32 r.val)) a + S256x1.size a ≤ S1024x1.size a
  k0_off3_inb : ∀ (r : Fin 4), ∀ a, (k0_off3 (BitVec.ofNat 32 r.val)) a + S256x1024.size a ≤ S1024x1024.size a
  k0_mult2_dvd : 8 ∣ k0_mult2.toNat
  k0_mult3_dvd : 8 ∣ k0_mult3.toNat
  k0_mult4_dvd : 8 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)

variable [Facts₀]

def dot_S256x512_S1024x512_S256x1024_1_1_0_0_n_n : DotDims S256x512 S1024x512 S256x1024 where
  lhsContracting := [1]
  rhsContracting := [1]
  lhsNonContracting := [0]
  rhsNonContracting := [0]
  lhsBatch := []
  rhsBatch := []
  wf := dot_S256x512_S1024x512_S256x1024_1_1_0_0_n_n_wf

abbrev win0_0 : Pipeline.Window sig grid0 :=
  Pipeline.Window.ofSpec (Memref.whole main_v16) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x512 : Shape := ⟨2, ![8192, 512]⟩
abbrev S512 : Shape := ⟨1, ![512]⟩
abbrev S_ : Shape := ⟨0, ![]⟩
abbrev S1x512 : Shape := ⟨2, ![1, 512]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 36
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S_, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S8192x512, .f32⟩
  | .hbm, ⟨9, _⟩ => ⟨S8192x512, .f32⟩
  | .hbm, ⟨10, _⟩ => ⟨S1x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192, .f32⟩
  | .hbm, ⟨16, _⟩ => ⟨S8192x512, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S1x8192, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.Spec.lean ====
/-
  The Gram matrix of the squared-exponential kernel with one length scale per coordinate, as ONE function of the
  scaled inputs.

  With `xs`, `ys` the two inputs already divided coordinate by coordinate by the length scales, `x2 p = ‖xs p‖²` and
  `y2 q = ‖ys q‖²` their rows' squared norms, the squared distance between row `p` of `xs` and row `q` of `ys` is
  `x2 p + y2 q − 2 · ⟨xs p, ys q⟩`, and the matrix entry is `exp (−½ · max (that, 0))`. Both programs compute the
  entry in exactly this arrangement, with the same three literals (the f32 words of −½, 2 and 0, kept as words:
  the same word on both sides is never evaluated), so `entry` is written once and both sides are read down to it.
  The squared norms and the scaled inputs themselves are arguments here: both programs compute them by the same
  operations before anything differs.
-/
import Idealize.ShloMosaic.Lib.ValueIdx
import Idealize.ShloMosaic.PureOps.Ideal

noncomputable section

namespace Cert.ArdGram

open Idealize.ShloMosaic Idealize.ShloMosaic.ValueIdx
open scoped BigOperators

/-- One entry from the two squared norms `a`, `b` and the inner product `d`: `exp (−½ · max (a + b − 2 · d, 0))`. -/
def entry (a b d : EReal) : EReal :=
  Ideal.exp (Ideal.ofBits .f32 0xBF000000#32
    * max (a + b - Ideal.ofBits .f32 0x40000000#32 * d) (Ideal.ofBits .f32 0x00000000#32))

/-- The whole 8192 × 8192 matrix: entry `(p, q)` from row `p` of `xs` and row `q` of `ys` (512 coordinates each). -/
def gram (xs ys : FVec Ideal ⟨2, ![8192, 512]⟩ .f32) (x2 y2 : FVec Ideal ⟨1, ![8192]⟩ .f32) :
    FVec Ideal ⟨2, ![8192, 8192]⟩ .f32 :=
  fun i => entry (x2 (ix1 (i 0 : Fin 8192))) (y2 (ix1 (i 1 : Fin 8192)))
    (∑ k : Fin 512, xs (ix2 (i 0 : Fin 8192) k) * ys (ix2 (i 1 : Fin 8192) k))

/-- One 1024 × 1024 tile of it, from a 1024-row tile of each scaled input (the left one possibly in another float
    format: a change of format is the identity here), the left rows' squared norms as a column and the right rows'
    as a row. -/
def tile {φ : FTy} (xt yt : FVec Ideal ⟨2, ![1024, 512]⟩ φ) (x2t : FVec Ideal ⟨2, ![1024, 1]⟩ .f32)
    (y2t : FVec Ideal ⟨2, ![1, 1024]⟩ .f32) : FVec Ideal ⟨2, ![1024, 1024]⟩ .f32 :=
  fun y => entry (x2t (ix2 (y 0 : Fin 1024) (0 : Fin 1))) (y2t (ix2 (0 : Fin 1) (y 1 : Fin 1024)))
    (∑ k : Fin 512, xt (ix2 (y 0 : Fin 1024) k) * yt (ix2 (y 1 : Fin 1024) k))

end Cert.ArdGram

end
-- ==== Proof.LibMatmulABt.lean ====
/-
  A matrix product against a transposed right operand, read at coordinates, over the extended reals.

  Both operands carry the shared axis as their SECOND axis: the left operand is `[m, k]`, the right one `[n, k]`,
  and the result `[m, n]` at `(p, q)` is the inner product of row `p` of the left operand with row `q` of the
  right one — the product `A · Bᵀ`. Into the zero accumulator nothing else is added, so the entry is exactly
  `∑ c, A (p, c) · B (q, c)`. Stated for any extents `m`, `k`, `n`; a product record of a program with these
  dimension numbers unfolds to `abtDims`.
-/
import Idealize.ShloMosaic.Lib.ValueIdx
import Idealize.ShloMosaic.PureOps.Ideal.Laws

noncomputable section

namespace Cert.LibMatmulABt

open Idealize.ShloMosaic Idealize.ShloMosaic.ValueIdx
open scoped BigOperators

/-- The dimension numbers of an `[m, k]` by `[n, k]` product contracted on the second axis of both operands, no batch
    axis: the result's rows are the left operand's rows, its columns the right operand's rows. -/
abbrev abtDims {m k n : Nat} (wf : DotDims.WF (⟨2, ![m, k]⟩ : Shape) ⟨2, ![n, k]⟩ ⟨2, ![m, n]⟩ [1] [1] [0] [0] [] []) :
    DotDims ⟨2, ![m, k]⟩ ⟨2, ![n, k]⟩ ⟨2, ![m, n]⟩ := ⟨[1], [1], [0], [0], [], [], wf⟩

section Abt
variable {m k n : Nat} (wf : DotDims.WF (⟨2, ![m, k]⟩ : Shape) ⟨2, ![n, k]⟩ ⟨2, ![m, n]⟩ [1] [1] [0] [0] [] [])

/-- The left operand is read in the result's row … -/
theorem abt_lhs_row (j : (⟨2, ![m, n]⟩ : Shape).Idx) (c : (abtDims wf).contr.Idx) :
    ((abtDims wf).lhsIdx j c 0).val = (j 0).val := by
  unfold DotDims.lhsIdx
  rw [dif_neg (show ¬(0 : Fin (⟨2, ![m, k]⟩ : Shape).rank) ∈ (abtDims wf).lhsBatch from List.not_mem_nil),
    dif_pos (show (0 : Fin (⟨2, ![m, k]⟩ : Shape).rank) ∈ (abtDims wf).lhsNonContracting from List.mem_singleton.mpr rfl)]
  rfl

/-- … and the right operand in the row named by the result's column. -/
theorem abt_rhs_row (j : (⟨2, ![m, n]⟩ : Shape).Idx) (c : (abtDims wf).contr.Idx) :
    ((abtDims wf).rhsIdx j c 0).val = (j 1).val := by
  unfold DotDims.rhsIdx
  rw [dif_neg (show ¬(0 : Fin (⟨2, ![n, k]⟩ : Shape).rank) ∈ (abtDims wf).rhsBatch from List.not_mem_nil),
    dif_pos (show (0 : Fin (⟨2, ![n, k]⟩ : Shape).rank) ∈ (abtDims wf).rhsNonContracting from List.mem_singleton.mpr rfl)]
  rfl

/-- The sum over the contraction index of such a product is the sum over the shared axis of the products of row `p`
    of the left operand and row `q` of the right one. -/
theorem sum_contr_abt {φ₁ φ₂ : FTy} (l : FVec Ideal ⟨2, ![m, k]⟩ φ₁) (r : FVec Ideal ⟨2, ![n, k]⟩ φ₂) (p : Fin m) (q : Fin n) :
    ∑ c : (abtDims wf).contr.Idx, l ((abtDims wf).lhsIdx (ix2 p q) c) * r ((abtDims wf).rhsIdx (ix2 p q) c)
      = ∑ c : Fin k, l (ix2 p c) * r (ix2 q c) := by
  rw [← Equiv.sum_comp (contrEquiv1 (abtDims wf) k rfl rfl).symm]
  refine Finset.sum_congr rfl fun c _ => ?_
  have hc := contrEquiv1_symm_val (abtDims wf) k rfl rfl c
  have el : (abtDims wf).lhsIdx (ix2 p q) ((contrEquiv1 (abtDims wf) k rfl rfl).symm c) = ix2 p c :=
    funext fun a => Fin.ext (by
      match a with
      | ⟨0, _⟩ => exact abt_lhs_row wf _ _
      | ⟨1, _⟩ => exact ((abtDims wf).lhsIdx_val_of_single rfl _ _).trans hc)
  have er : (abtDims wf).rhsIdx (ix2 p q) ((contrEquiv1 (abtDims wf) k rfl rfl).symm c) = ix2 q c :=
    funext fun a => Fin.ext (by
      match a with
      | ⟨0, _⟩ => exact abt_rhs_row wf _ _
      | ⟨1, _⟩ => exact ((abtDims wf).rhsIdx_val_of_single rfl _ _).trans hc)
  rw [el, er]

/-- Such a product into the zero accumulator reads, at `(p, q)`, the inner product of row `p` of the left operand and
    row `q` of the right one. -/
theorem matmul_zero_abt {φ₁ φ₂ : FTy} (l : FVec Ideal ⟨2, ![m, k]⟩ φ₁) (r : FVec Ideal ⟨2, ![n, k]⟩ φ₂)
    (p : Fin m) (q : Fin n) :
    FloatOps.matmul (abtDims wf) none l r (constant (F := Ideal) ⟨2, ![m, n]⟩ .f32 0x00000000#32) (ix2 p q)
      = ∑ c : Fin k, l (ix2 p c) * r (ix2 q c) := by
  rw [Ideal.matmul_constant_zero_apply]
  exact sum_contr_abt wf l r p q

end Abt

end Cert.LibMatmulABt

end
-- ==== Proof.LibKeepdims.lean ====
/-
  A sum along the rows of a matrix kept as a column, read at an index.

  `jnp.sum(x, axis=-1, keepdims=True)` of an `[a, b]` block is printed as three steps: the sum over the second
  axis into an `[a]` vector, that vector re-laid as an `[a, 1]` column, and (where it meets the block again) the
  column repeated along the rows to `[a, b]`. Read at an index `(p, c)` each step is elementary:
  * the sum at `p` is `∑ k, x (p, k)` over the `b` entries of row `p` (at the exact instance, with the neutral
    accumulator, which the reading drops);
  * the column at `(p, 0)` is the vector at `p`: row-major positions `p · 1 + 0 = p`;
  * the repeated column at `(p, c)` is the column at `(p, 0)`, whatever `c` is.
  All three are stated for any extents `a`, `b`.
-/
import Idealize.ShloMosaic.Lib.ValueLayout
import Idealize.ShloMosaic.PureOps.Ideal.Laws

noncomputable section

namespace Cert.LibKeepdims

open Idealize.ShloMosaic Idealize.ShloMosaic.ValueIdx

variable {α : Type}

/-- An `[a]` vector re-laid as an `[a, 1]` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated along the rows to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance, the sum of an `[a, b]` block over its second axis, from the neutral accumulator, is at
    `p` the sum of the `b` entries of row `p`. -/
theorem multiReduction_add_row {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibKeepdims

end
-- ==== Proof.BodyValue.lean ====
/-
  What one grid point of the kernel leaves in its output tile, as ONE function of the point's four input tiles.

  The body walks its 1024 × 1024 output tile in four horizontal bands of 256 rows. For band `b` it takes rows
  `256·b … 256·b + 255` of the left tile `xt` and of the left norms' column `x2t`, multiplies the band of `xt` by the
  whole right tile `yt` transposed, and writes `exp (−½ · max (x2t + y2t − 2 · that, 0))` into the band. So entry
  `(r, q)` of band `b` depends on row `256·b + r` of `xt` / `x2t` and on row `q` of `yt` / column `q` of `y2t`: every band
  is the restriction of the same function of the tile index, `ArdGram.tile`, and the four bands cover the tile.
-/
import proofs.«104816_j82712480187158_2_alg».proof.Proof.Gen.KernelIdeal.Frame
import proofs.«104816_j82712480187158_2_alg».proof.Proof.Spec
import proofs.«104816_j82712480187158_2_alg».proof.Proof.LibMatmulABt
import proofs.«104816_j82712480187158_2_alg».proof.Proof.LibKeepdims
import Idealize.ShloMosaic.Lib.Pipeline.Value
import Idealize.ShloMosaic.Lib.ValueIdx
import Idealize.ShloMosaic.Lib.ValueLayout
import Idealize.ShloMosaic.Lib.Tactic

noncomputable section

namespace Cert.KernelIdeal.Body

open Cert.KernelIdeal Cert.KernelIdeal.Gen Cert.ArdGram
open Idealize.ShloMosaic Idealize.ShloMosaic.TcCoe Idealize.ShloMosaic.ValueIdx Idealize.SL.Sem
open scoped BigOperators

/-! ## One band's arithmetic -/

/-- The arithmetic of one band, over the values it is computed from: the whole right tile `yt`, the right norms' row
    `y2t`, the band `xb` of the left tile and the band `x2b` of the left norms' column. -/
def band (yt : FVec Ideal S1024x512 .bf16) (y2t : FVec Ideal S1x1024 .f32) (xb : FVec Ideal S256x512 .bf16)
    (x2b : FVec Ideal S256x1 .f32) : FVec Ideal S256x1024 .f32 :=
  exp (mulf (broadcast S256x1024 (Scalar.ofBits (F := Ideal) .f32 0xBF000000#32))
    (maximumf (subf (addf (broadcastTo S256x1024 x2b broadcasts_S256x1_S256x1024) (broadcastTo S256x1024 y2t broadcasts_S1x1024_S256x1024))
      (mulf (broadcast S256x1024 (Scalar.ofBits (F := Ideal) .f32 0x40000000#32))
        (matmul dot_S256x512_S1024x512_S256x1024_1_1_0_0_n_n none xb yt (constant (F := Ideal) S256x1024 .f32 0x00000000#32))))
      (broadcast S256x1024 (Scalar.ofBits (F := Ideal) .f32 0x00000000#32))))

/-- Entry `(r, q)` of a band: from the band's row `r` and the right tile's row `q`. -/
theorem band_apply (yt : FVec Ideal S1024x512 .bf16) (y2t : FVec Ideal S1x1024 .f32) (xb : FVec Ideal S256x512 .bf16)
    (x2b : FVec Ideal S256x1 .f32) (r : Fin 256) (q : Fin 1024) :
    band yt y2t xb x2b (ix2 r q)
      = entry (x2b (ix2 r (0 : Fin 1))) (y2t (ix2 (0 : Fin 1) q)) (∑ k : Fin 512, xb (ix2 r k) * yt (ix2 q k)) := by
  unfold band entry
  show Ideal.exp (Ideal.ofBits .f32 0xBF000000#32 * max
      ((broadcastTo S256x1024 x2b broadcasts_S256x1_S256x1024 (ix2 r q) + broadcastTo S256x1024 y2t broadcasts_S1x1024_S256x1024 (ix2 r q))
        - Ideal.ofBits .f32 0x40000000#32
          * FloatOps.matmul dot_S256x512_S1024x512_S256x1024_1_1_0_0_n_n none xb yt (constant (F := Ideal) S256x1024 .f32 0x00000000#32) (ix2 r q))
      (Ideal.ofBits .f32 0x00000000#32)) = _
  have hm : FloatOps.matmul dot_S256x512_S1024x512_S256x1024_1_1_0_0_n_n none xb yt
      (constant (F := Ideal) S256x1024 .f32 0x00000000#32) (ix2 r q) = ∑ k : Fin 512, xb (ix2 r k) * yt (ix2 q k) :=
    Cert.LibMatmulABt.matmul_zero_abt dot_S256x512_S1024x512_S256x1024_1_1_0_0_n_n_wf xb yt r q
  rw [Cert.LibKeepdims.broadcastTo_a1_ab_apply x2b broadcasts_S256x1_S256x1024 r q,
    broadcastTo_1b_ab_apply y2t broadcasts_S1x1024_S256x1024 r q, hm]

/-! ## The printed payloads are bands -/

theorem pay4_eq (v0 : Vec Ideal S1024x512 .bf16) (v2 : Vec Ideal S1x1024 .f32) (v7 : Vec Ideal S256x512 .bf16) (v10 : Vec Ideal S256x1 .f32) :
    k0_pay4 (F := Ideal) v0 v2 v7 v10 = band v0 v2 v7 v10 := by
  unfold k0_pay4 k0_pay2 k0_pay3 band
  simp only [shapeCast_self]

theorem pay7_eq (v0 : Vec Ideal S1024x512 .bf16) (v2 : Vec Ideal S1x1024 .f32) (v29 : Vec Ideal S256x512 .bf16) (v32 : Vec Ideal S256x1 .f32) :
    k0_pay7 (F := Ideal) (k0_pay5 v0 v29) (k0_pay6 v2 v32) (FloatOps.ofBits .f32 0x40000000#32) = band v0 v2 v29 v32 := by
  unfold k0_pay7 k0_pay5 k0_pay6 k0_pay2 k0_pay3 band
  simp only [shapeCast_self]

theorem pay8_eq (v0 : Vec Ideal S1024x512 .bf16) (v2 : Vec Ideal S1x1024 .f32) (v51 : Vec Ideal S256x512 .bf16) (v54 : Vec Ideal S256x1 .f32) :
    k0_pay8 (F := Ideal) (k0_pay2 v0) (k0_pay3 v2) v51 v54 = band v0 v2 v51 v54 := by
  unfold k0_pay8 k0_pay2 k0_pay3 band
  simp only [shapeCast_self]

theorem pay1_eq (v0 : Vec Ideal S1024x512 .bf16) (v2 : Vec Ideal S1x1024 .f32) (v73 : Vec Ideal S256x512 .bf16) (v76 : Vec Ideal S256x1 .f32) :
    k0_pay1 (F := Ideal) (k0_pay3 v2) (k0_pay9 v76) (k0_pay10 (k0_pay2 v0) v73) = band v0 v2 v73 v76 := by
  unfold k0_pay1 k0_pay9 k0_pay10 k0_pay2 k0_pay3 band
  simp only [shapeCast_self]

/-! ## A band is the tile's function restricted to the band's rows -/

theorem hz : (![0, 0] : Fin 2 → Nat) = fun _ => 0 := funext fun a => by fin_cases a <;> rfl

/-- The band that starts at row `o` of the tile — computed from the whole right tile and right norms (loaded through
    the whole-buffer rectangle) and from rows `o … o + 255` of the left tile and left norms — agrees, at its local
    index `(r, q)`, with the tile's function at `(o + r, q)`. -/
theorem band_eq_tile (o : ℕ) (x0 x1 : FVec Ideal S1024x512 .bf16) (x2 : FVec Ideal S1024x1 .f32) (x3 : FVec Ideal S1x1024 .f32)
    (inb1 : ∀ a, (![0, 0] : Fin 2 → Nat) a + S1024x512.size a ≤ S1024x512.size a)
    (inb3 : ∀ a, (![0, 0] : Fin 2 → Nat) a + S1x1024.size a ≤ S1x1024.size a)
    (inb0 : ∀ a, (![o, 0] : Fin 2 → Nat) a + S256x512.size a ≤ S1024x512.size a)
    (inb2 : ∀ a, (![o, 0] : Fin 2 → Nat) a + S256x1.size a ≤ S1024x1.size a)
    (inb4 : ∀ a, (![o, 0] : Fin 2 → Nat) a + (![256, 1024] : Fin 2 → Nat) a ≤ S1024x1024.size a)
    (x : S256x1024.Idx) :
    band (View.ld (Val := Elt Ideal) (e' := .bf16) x1 (Rect.unit (s := S1024x512) ![0, 0] S1024x512.size inb1))
        (View.ld (Val := Elt Ideal) (e' := .f32) x3 (Rect.unit (s := S1x1024) ![0, 0] S1x1024.size inb3))
        (View.ld (Val := Elt Ideal) (e' := .bf16) x0 (Rect.unit (s := S1024x512) ![o, 0] S256x512.size inb0))
        (View.ld (Val := Elt Ideal) (e' := .f32) x2 (Rect.unit (s := S1024x1) ![o, 0] S256x1.size inb2)) x
      = tile (φ := .bf16) x0 x1 x2 x3 ((Rect.unit (s := S1024x1024) ![o, 0] ![256, 1024] inb4).emb x) := by
  obtain ⟨r, q, rfl⟩ : ∃ (r : Fin 256) (q : Fin 1024), x = ix2 r q := ⟨x 0, x 1, eq_ix2 x⟩
  have e1 : View.ld (Val := Elt Ideal) (e' := .bf16) x1 (Rect.unit (s := S1024x512) ![0, 0] S1024x512.size inb1) = x1 :=
    View.ld_unit_zero (Val := Elt Ideal) (S := S1024x512) (e := .bf16) hz inb1 x1
  have e3 : View.ld (Val := Elt Ideal) (e' := .f32) x3 (Rect.unit (s := S1x1024) ![0, 0] S1x1024.size inb3) = x3 :=
    View.ld_unit_zero (Val := Elt Ideal) (S := S1x1024) (e := .f32) hz inb3 x3
  rw [e1, e3, band_apply]
  unfold tile
  have h2 : (Rect.unit (s := S1024x1) ![o, 0] S256x1.size inb2).idx (ix2 r (0 : Fin 1))
      = ix2 (((Rect.unit (s := S1024x1024) ![o, 0] ![256, 1024] inb4).emb (ix2 r q)) 0 : Fin 1024) (0 : Fin 1) :=
    funext fun a => Fin.ext (by match a with | ⟨0, _⟩ => rfl | ⟨1, _⟩ => rfl)
  have h3 : (ix2 (0 : Fin 1) q : S1x1024.Idx)
      = ix2 (0 : Fin 1) (((Rect.unit (s := S1024x1024) ![o, 0] ![256, 1024] inb4).emb (ix2 r q)) 1 : Fin 1024) :=
    funext fun a => Fin.ext (by
      match a with
      | ⟨0, _⟩ => rfl
      | ⟨1, _⟩ => show q.val = 0 + 1 * q.val; omega)
  have h0 : ∀ k : Fin 512, (Rect.unit (s := S1024x512) ![o, 0] S256x512.size inb0).idx (ix2 r k)
      = ix2 (((Rect.unit (s := S1024x1024) ![o, 0] ![256, 1024] inb4).emb (ix2 r q)) 0 : Fin 1024) k :=
    fun k => funext fun a => Fin.ext (by
      match a with
      | ⟨0, _⟩ => rfl
      | ⟨1, _⟩ => show 0 + 1 * k.val = k.val; omega)
  have h1 : ∀ k : Fin 512, (ix2 q k : S1024x512.Idx)
      = ix2 (((Rect.unit (s := S1024x1024) ![o, 0] ![256, 1024] inb4).emb (ix2 r q)) 1 : Fin 1024) k :=
    fun k => funext fun a => Fin.ext (by
      match a with
      | ⟨0, _⟩ => show q.val = 0 + 1 * q.val; omega
      | ⟨1, _⟩ => rfl)
  show entry (x2 _) (x3 _) (∑ k : Fin 512, x0 _ * x1 _) = _
  rw [h2, h3]
  refine congrArg (entry _ _) (Finset.sum_congr rfl fun k _ => ?_)
  rw [h0 k, h1 k]
  rfl

/-! ## What the body leaves in the output tile -/

/-- The four bands the body's run leaves cover the output tile, and each is the tile's function on its rows: the
    tile's staging buffer ends holding `ArdGram.tile` of the four input tiles. -/
theorem out_eq (c : Dev nD) (i : grid0.Coords) (arg2 : Memref sig .tc .vmem S1024x512 .bf16) (harg2 : arg2.IsWhole)
    (arg3 : Memref sig .tc .vmem S1024x512 .bf16) (harg3 : arg3.IsWhole) (arg4 : Memref sig .tc .vmem S1024x1 .f32) (harg4 : arg4.IsWhole)
    (arg5 : Memref sig .tc .vmem S1x1024 .f32) (harg5 : arg5.IsWhole) (arg6 : Memref sig .tc .vmem S1024x1024 .f32) (harg6 : arg6.IsWhole)
    (x0 x1 : Vec Ideal S1024x512 .bf16) (x2 : Vec Ideal S1024x1 .f32) (x3 : Vec Ideal S1x1024 .f32) :
    out0_A_4 (F := Ideal) c i arg2 harg2 arg3 harg3 arg4 harg4 arg5 harg5 arg6 harg6 x0 x1 x2 x3
      = tile (φ := .bf16) x0 x1 x2 x3 := by
  unfold out0_A_4
  rw [View.read_writes_eq_canon _ _ _ (cover0_A_4 c i arg2 harg2 arg3 harg3 arg4 harg4 arg5 harg5 arg6 harg6 x0 x1 x2 x3)]
  funext y
  refine View.canon_apply_of_pieces (tile (φ := .bf16) x0 x1 x2 x3) _ ?_ y
    (cover0_A_4 c i arg2 harg2 arg3 harg3 arg4 harg4 arg5 harg5 arg6 harg6 x0 x1 x2 x3 y)
  unfold kernelRun0_A
  dsimp only
  sl_unfold_words
  simp only [View.readAt_eq_ld, harg2.read_unread, harg3.read_unread, harg4.read_unread, harg5.read_unread]
  intro p hp
  simp only [List.mem_cons, List.not_mem_nil, or_false] at hp
  rcases hp with rfl | rfl | rfl | rfl
  · intro x
    refine (congrFun (pay1_eq _ _ _ _) x).trans ?_
    exact band_eq_tile 768 x0 x1 x2 x3 (by decide) (by decide) (by decide) (by decide) (by decide) x
  · intro x
    refine (congrFun (pay8_eq _ _ _ _) x).trans ?_
    exact band_eq_tile 512 x0 x1 x2 x3 (by decide) (by decide) (by decide) (by decide) (by decide) x
  · intro x
    refine (congrFun (pay7_eq _ _ _ _) x).trans ?_
    exact band_eq_tile 256 x0 x1 x2 x3 (by decide) (by decide) (by decide) (by decide) (by decide) x
  · intro x
    refine (congrFun (pay4_eq _ _ _ _) x).trans ?_
    exact band_eq_tile 0 x0 x1 x2 x3 (by decide) (by decide) (by decide) (by decide) (by decide) x

end Cert.KernelIdeal.Body

end
-- ==== Proof.KernelValue.lean ====
/-
  The idealized kernel's result array is the Gram matrix `ArdGram.gram` of its own scaled inputs and squared norms.

  Before the grid runs, the program computes on the host the two inputs divided coordinate by coordinate by the
  length scales (`scaled`), their rows' squared norms (`sqnorm`), lays the left norms as a column `[8192, 1]` and the
  right norms as a row `[1, 8192]`, and hands the four arrays to the grid (the scaled inputs through a change of
  float format, which is the identity on the extended reals). Grid point `(I, J)` reads rows `1024·I …` of the left
  input and of the left norms' column, rows `1024·J …` of the right input and columns `1024·J …` of the right norms'
  row, and writes tile `(I, J)` of the result. By `Body.out_eq` the tile written is `ArdGram.tile` of those four
  input tiles, and entry `(r, q)` of that tile is `ArdGram.gram` at `(1024·I + r, 1024·J + q)`. The 64 tiles cover the
  result, so the result array is `gram`.
-/
import proofs.«104816_j82712480187158_2_alg».proof.Proof.Gen.KernelIdeal.Value
import proofs.«104816_j82712480187158_2_alg».proof.Proof.BodyValue
import Idealize.ShloMosaic.Lib.StableHlo.Run
import Idealize.ShloMosaic.Lib.Pipeline.Value
import Idealize.ShloMosaic.Lib.ValueLayout

noncomputable section

namespace Cert.KernelIdeal.GramValue

open Cert.KernelIdeal Cert.KernelIdeal.Gen Cert.KernelIdeal.Value Cert.ArdGram
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-! ## What the host computes before the grid -/

/-- An input divided, coordinate by coordinate, by the length scales: `a (i, k) · exp (−½ · h k)`. -/
def scaled (a : FVec Ideal S8192x512 .f32) (h : FVec Ideal S512 .f32) : FVec Ideal S8192x512 .f32 :=
  mulf a (broadcastInDim S8192x512 ![0, 1] bcast_S1x512_S8192x512_0_1 (broadcastInDim S1x512 ![1] bcast_S512_S1x512_1
    (Host.exp (F := Ideal) (mulf (broadcastInDim S512 ![] bcast_S_S512 (constant (F := Ideal) S_ .f32 0xBF000000#32)) h))))

/-- The squared norm of each row of the scaled input. -/
def sqnorm (a : FVec Ideal S8192x512 .f32) (h : FVec Ideal S512 .f32) : FVec Ideal S8192 .f32 :=
  Host.reduceAdd (F := Ideal) (mulf (scaled a h) (scaled a h)) (constant (F := Ideal) S_ .f32 0x00000000#32)
    reducesTo_S8192x512_S8192_d1 h_S_

/-- The left operand the grid reads: the scaled first input (through a change of float format). -/
theorem V_left (c : Dev nD) : (V m c main_v16 : S8192x512.Idx → EReal)
    = truncf .bf16 (scaled (m ((c : Thread nD τ).loc main_arg0)) (m ((c : Thread nD τ).loc main_arg2))) bitsLt_bf16_f32 := by
  dsimp only [Gen.V, Gen.hostOps0]; after_results; rfl

/-- The right operand: the scaled second input. -/
theorem V_right (c : Dev nD) : (V m c main_v17 : S8192x512.Idx → EReal)
    = truncf .bf16 (scaled (m ((c : Thread nD τ).loc main_arg1)) (m ((c : Thread nD τ).loc main_arg2))) bitsLt_bf16_f32 := by
  dsimp only [Gen.V, Gen.hostOps0]; after_results; rfl

/-- The left norms, as a column. -/
theorem V_lnorm (c : Dev nD) : (V m c main_v11 : S8192x1.Idx → EReal)
    = broadcastInDim S8192x1 ![0] bcast_S8192_S8192x1_0
        (sqnorm (m ((c : Thread nD τ).loc main_arg0)) (m ((c : Thread nD τ).loc main_arg2))) := by
  dsimp only [Gen.V, Gen.hostOps0]; after_results; rfl

/-- The right norms, as a row: the column transposed. -/
theorem V_rnorm (c : Dev nD) : (V m c main_v15 : S1x8192.Idx → EReal)
    = transpose S1x8192 [1, 0] (broadcastInDim S8192x1 ![0] bcast_S8192_S8192x1_0
        (sqnorm (m ((c : Thread nD τ).loc main_arg1)) (m ((c : Thread nD τ).loc main_arg2)))) transposes_S8192x1_S1x8192_1_0 := by
  dsimp only [Gen.V, Gen.hostOps0]; after_results; rfl

/-! ## The host layouts read at coordinates -/

/-- A vector laid as a column reads, at `(i, 0)`, its entry `i`. -/
theorem col_apply (v : FVec Ideal S8192 .f32) (i : Fin 8192) (u : Fin 1) :
    broadcastInDim S8192x1 ![0] bcast_S8192_S8192x1_0 v (ix2 i u) = v (ix1 i) :=
  broadcastInDim_apply _ bcast_S8192_S8192x1_0 v (ix2 i u) (ix1 i) (fun a => match a with
    | ⟨0, _⟩ => by show i.val = if (8192 : Nat) = 1 then 0 else i.val; rw [if_neg (by decide)])

/-- The column transposed is a row: at `(0, i)` it reads the vector's entry `i`. -/
theorem row_apply (v : FVec Ideal S8192 .f32) (u : Fin 1) (i : Fin 8192) :
    transpose S1x8192 [1, 0] (broadcastInDim S8192x1 ![0] bcast_S8192_S8192x1_0 v) transposes_S8192x1_S1x8192_1_0 (ix2 u i)
      = v (ix1 i) :=
  (transpose_ix2_apply (broadcastInDim S8192x1 ![0] bcast_S8192_S8192x1_0 v) transposes_S8192x1_S1x8192_1_0 u i).trans
    (col_apply v i u)

/-! ## Which tiles a grid point reads and writes -/

/-- The printed index maps, decided over the 64 grid points: with `(I, J)` the output's tile at the point, the left input
    and the left norms' column are read at row-tile `I`, the right input at row-tile `J`, the right norms' row at
    column-tile `J`; the other coordinate of each is 0; and `I, J ≤ 7`. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 7 :=
  (by decide +kernel : ∀ t : Fin grid0.N, _)

/-- Every tile of the 8 × 8 tiling is some grid point's. -/
theorem idx_onto : ∀ (q0 q1 : Fin 8), ∃ t : Fin cfg0.N, win0_4.index t = ![q0.val, q1.val] :=
  (by decide +kernel : ∀ (q0 q1 : Fin 8), ∃ t : Fin grid0.N, win0_4.index t = ![q0.val, q1.val])

/-! ## The result array -/

/-- The result as one function of the argument arrays: `gram` of the scaled inputs and their rows' squared norms. -/
def result (c : Dev nD) : FVec Ideal S8192x8192 .f32 :=
  gram (scaled (m ((c : Thread nD τ).loc main_arg0)) (m ((c : Thread nD τ).loc main_arg2)))
    (scaled (m ((c : Thread nD τ).loc main_arg1)) (m ((c : Thread nD τ).loc main_arg2)))
    (sqnorm (m ((c : Thread nD τ).loc main_arg0)) (m ((c : Thread nD τ).loc main_arg2)))
    (sqnorm (m ((c : Thread nD τ).loc main_arg1)) (m ((c : Thread nD τ).loc main_arg2)))

/-- A tile whose four input tiles are, row by row, rows `P` and `Q` of the whole arrays has, at `(r, q)`, the whole
    matrix's entry `(P, Q)`. -/
theorem tile_eq_gram {φ : FTy} (xt yt : FVec Ideal ⟨2, ![1024, 512]⟩ φ) (x2t : FVec Ideal ⟨2, ![1024, 1]⟩ .f32)
    (y2t : FVec Ideal ⟨2, ![1, 1024]⟩ .f32) (xs ys : FVec Ideal ⟨2, ![8192, 512]⟩ .f32) (x2 y2 : FVec Ideal ⟨1, ![8192]⟩ .f32)
    (r q : Fin 1024) (P Q : Fin 8192)
    (h0 : ∀ k : Fin 512, xt (ix2 r k) = xs (ix2 P k)) (h1 : ∀ k : Fin 512, yt (ix2 q k) = ys (ix2 Q k))
    (h2 : x2t (ix2 r (0 : Fin 1)) = x2 (ix1 P)) (h3 : y2t (ix2 (0 : Fin 1) q) = y2 (ix1 Q)) :
    tile xt yt x2t y2t (ix2 r q) = gram xs ys x2 y2 (ix2 P Q) := by
  unfold tile gram
  show entry (x2t (ix2 r (0 : Fin 1))) (y2t (ix2 (0 : Fin 1) q)) (∑ k : Fin 512, xt (ix2 r k) * yt (ix2 q k))
    = entry (x2 (ix1 P)) (y2 (ix1 Q)) (∑ k : Fin 512, xs (ix2 P k) * ys (ix2 Q k))
  rw [h2, h3]
  exact congrArg (entry _ _) (Finset.sum_congr rfl fun k _ => by rw [h0 k, h1 k])

/-- Row `r` of the left input's tile at a point is row `P` of the scaled first input, `P` the row the tile's index map
    names. -/
theorem left_tile (c : Dev nD) (t : Fin cfg0.N) (r : Fin 1024) (k : Fin 512) (P : Fin 8192)
    (hP : P.val = win0_0.index t (0 : Fin 2) * 1024 + r.val) (hz : win0_0.index t (1 : Fin 2) = 0) :
    (iblk m c 0 t : S1024x512.Idx → EReal) (ix2 r k)
      = scaled (m ((c : Thread nD τ).loc main_arg0)) (m ((c : Thread nD τ).loc main_arg2)) (ix2 P k) := by
  unfold iblk
  rw [View.read_apply]
  show (V m c main_v16 : S8192x512.Idx → EReal) _ = _
  rw [V_left]
  show scaled _ _ _ = _
  refine congrArg _ (funext fun a => Fin.ext ?_)
  match a with
  | ⟨0, _⟩ => show win0_0.index t (0 : Fin 2) * 1024 + 1 * r.val = P.val; omega
  | ⟨1, _⟩ => show win0_0.index t (1 : Fin 2) * 512 + 1 * k.val = k.val; omega

/-- The same for the right input. -/
theorem right_tile (c : Dev nD) (t : Fin cfg0.N) (q : Fin 1024) (k : Fin 512) (Q : Fin 8192)
    (hQ : Q.val = win0_1.index t (0 : Fin 2) * 1024 + q.val) (hz : win0_1.index t (1 : Fin 2) = 0) :
    (iblk m c 1 t : S1024x512.Idx → EReal) (ix2 q k)
      = scaled (m ((c : Thread nD τ).loc main_arg1)) (m ((c : Thread nD τ).loc main_arg2)) (ix2 Q k) := by
  unfold iblk
  rw [View.read_apply]
  show (V m c main_v17 : S8192x512.Idx → EReal) _ = _
  rw [V_right]
  show scaled _ _ _ = _
  refine congrArg _ (funext fun a => Fin.ext ?_)
  match a with
  | ⟨0, _⟩ => show win0_1.index t (0 : Fin 2) * 1024 + 1 * q.val = Q.val; omega
  | ⟨1, _⟩ => show win0_1.index t (1 : Fin 2) * 512 + 1 * k.val = k.val; omega

/-- Entry `r` of the left norms' tile is the squared norm of row `P`. -/
theorem lnorm_tile (c : Dev nD) (t : Fin cfg0.N) (r : Fin 1024) (P : Fin 8192)
    (hP : P.val = win0_2.index t (0 : Fin 2) * 1024 + r.val) (hz : win0_2.index t (1 : Fin 2) = 0) :
    (iblk m c 2 t : S1024x1.Idx → EReal) (ix2 r (0 : Fin 1))
      = sqnorm (m ((c : Thread nD τ).loc main_arg0)) (m ((c : Thread nD τ).loc main_arg2)) (ix1 P) := by
  unfold iblk
  rw [View.read_apply]
  show (V m c main_v11 : S8192x1.Idx → EReal) _ = _
  rw [V_lnorm]
  refine (congrArg _ (funext fun a => Fin.ext ?_)).trans (col_apply _ P (0 : Fin 1))
  match a with
  | ⟨0, _⟩ => show win0_2.index t (0 : Fin 2) * 1024 + 1 * r.val = P.val; omega
  | ⟨1, _⟩ => show win0_2.index t (1 : Fin 2) * 1 + 1 * 0 = 0; omega

/-- Entry `q` of the right norms' tile is the squared norm of row `Q`. -/
theorem rnorm_tile (c : Dev nD) (t : Fin cfg0.N) (q : Fin 1024) (Q : Fin 8192)
    (hQ : Q.val = win0_3.index t (1 : Fin 2) * 1024 + q.val) (hz : win0_3.index t (0 : Fin 2) = 0) :
    (iblk m c 3 t : S1x1024.Idx → EReal) (ix2 (0 : Fin 1) q)
      = sqnorm (m ((c : Thread nD τ).loc main_arg1)) (m ((c : Thread nD τ).loc main_arg2)) (ix1 Q) := by
  unfold iblk
  rw [View.read_apply]
  show (V m c main_v15 : S1x8192.Idx → EReal) _ = _
  rw [V_rnorm]
  refine (congrArg _ (funext fun a => Fin.ext ?_)).trans (row_apply _ (0 : Fin 1) Q)
  match a with
  | ⟨0, _⟩ => show win0_3.index t (0 : Fin 2) * 1 + 1 * 0 = 0; omega
  | ⟨1, _⟩ => show win0_3.index t (1 : Fin 2) * 1024 + 1 * q.val = Q.val; omega

/-- What grid point `t` writes back is tile `t` of `result`. -/
theorem flushed_eq (c : Dev nD) (t : Fin cfg0.N) :
    (dats m 0 c).flushed 4 t = ((cfg0.win 4).blk t).view.read (Elt Ideal) (result m c) := by
  rw [flushed4_A, Body.out_eq]
  obtain ⟨f0, f1, f2, f3, f4, f5, f6, f7, f8, f9⟩ := idx_facts t
  funext j
  obtain ⟨r, q, rfl⟩ : ∃ (r q : Fin 1024), j = ix2 r q := ⟨j 0, j 1, eq_ix2 j⟩
  have hr : r.val < 1024 := r.isLt
  have hq : q.val < 1024 := q.isLt
  have hP : win0_4.index t (0 : Fin 2) * 1024 + r.val < 8192 := by omega
  have hQ : win0_4.index t (1 : Fin 2) * 1024 + q.val < 8192 := by omega
  have e4 : ((cfg0.win 4).blk t).view.emb (ix2 r q)
      = ix2 (⟨win0_4.index t (0 : Fin 2) * 1024 + r.val, hP⟩ : Fin 8192) (⟨win0_4.index t (1 : Fin 2) * 1024 + q.val, hQ⟩ : Fin 8192) := by
    funext a; apply Fin.ext
    match a with
    | ⟨0, _⟩ => show win0_4.index t (0 : Fin 2) * 1024 + 1 * r.val = win0_4.index t (0 : Fin 2) * 1024 + r.val; omega
    | ⟨1, _⟩ => show win0_4.index t (1 : Fin 2) * 1024 + 1 * q.val = win0_4.index t (1 : Fin 2) * 1024 + q.val; omega
  show tile (φ := .bf16) (iblk m c 0 t) (iblk m c 1 t) (iblk m c 2 t) (iblk m c 3 t) (ix2 r q)
    = result m c (((cfg0.win 4).blk t).view.emb (ix2 r q))
  rw [e4]
  exact tile_eq_gram (φ := .bf16) (iblk m c 0 t) (iblk m c 1 t) (iblk m c 2 t) (iblk m c 3 t) _ _ _ _ r q
    ⟨win0_4.index t (0 : Fin 2) * 1024 + r.val, hP⟩ ⟨win0_4.index t (1 : Fin 2) * 1024 + q.val, hQ⟩
    (fun k => left_tile m c t r k _ (by show win0_4.index t (0 : Fin 2) * 1024 + r.val = _; omega) f1)
    (fun k => right_tile m c t q k _ (by show win0_4.index t (1 : Fin 2) * 1024 + q.val = _; omega) f3)
    (lnorm_tile m c t r _ (by show win0_4.index t (0 : Fin 2) * 1024 + r.val = _; omega) f5)
    (rnorm_tile m c t q _ (by show win0_4.index t (1 : Fin 2) * 1024 + q.val = _; omega) f6)

/-- An index of the result is in point `t`'s tile iff each coordinate is in the tile's range on its axis. -/
theorem mem_blk (t : Fin cfg0.N) (i : S8192x8192.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v18).slice (win0_4.rect t)).set ↔ _
  rw [View.set_slice_whole, Rect.mem_set_unit]
  exact Iff.rfl

/-- The 64 tiles cover the result: index `(a, b)` lies in the tile `(a / 1024, b / 1024)`. -/
theorem cover (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- The result array after the run is `result`. -/
theorem final (c : Dev nD) : (dats m 0 c).arrAt 4 cfg0.N = result m c :=
  (dats m 0 c).arrAt_eq_of_cover 4 (result m c) (fun t _ => flushed_eq m c t) cover

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.GramValue

end
-- ==== Proof.RefIsGram.lean ====
/-
  The reference computes the Gram matrix of `ArdGram.gram`.

  Read one operation at a time, entry `(p, q)` of the reference's result is `exp (−½ · max (s, 0))` with
  `s = (x2 p + y2 q) − 2 · ∑ₖ xs (p, k) · ys (q, k)`: the two norm vectors are spread along the other axis before they are
  added (the first along the columns, the second along the rows), and the product of `xs` with `ys` transposed sums
  over the shared coordinate `k`. Here `xs`, `ys` (the inputs divided by the length scales) and `x2`, `y2` (their rows'
  squared norms) are the reference's own intermediate arrays, left unopened.
-/
import proofs.«104816_j82712480187158_2_alg».proof.Proof.Gen.ReferenceIdeal.Read
import proofs.«104816_j82712480187158_2_alg».proof.Proof.Spec

noncomputable section

namespace Cert.ReferenceIdeal.RefValue

open Cert.ReferenceIdeal Cert.ReferenceIdeal.Read Cert.ArdGram
open Idealize.ShloMosaic Idealize.ShloMosaic.ValueIdx
open scoped BigOperators

/-- The reference's result is `gram` of its own scaled inputs and squared norms. -/
theorem result_eq (x0 x1 : (⟨S8192x512, .f32⟩ : BufTy).Contents (Elt Ideal)) (x2 : (⟨S512, .f32⟩ : BufTy).Contents (Elt Ideal)) :
    val_main_v26 (F := Ideal) x0 x1 x2
      = gram (val_main_v5 (F := Ideal) x0 x2) (val_main_v8 (F := Ideal) x1 x2)
          (val_main_v10 (F := Ideal) x0 x2) (val_main_v12 (F := Ideal) x1 x2) := by
  funext i
  obtain ⟨p, q, rfl⟩ : ∃ (p q : Fin 8192), i = ix2 p q := ⟨i 0, i 1, eq_ix2 i⟩
  have hx : idx_main_v13 (idx_main_v15 (ix2 p q)) = ix1 p :=
    funext fun a => Fin.ext (by match a with | ⟨0, _⟩ => rfl)
  have hy : idx_main_v14 (idx_main_v16 (ix2 p q)) = ix1 q :=
    funext fun a => Fin.ext (by match a with | ⟨0, _⟩ => rfl)
  have hl : ∀ k : Fin 512, lidx_main_v18 (ix2 p q) k = ix2 p k :=
    fun k => funext fun a => Fin.ext (by match a with | ⟨0, _⟩ => rfl | ⟨1, _⟩ => rfl)
  have hr : ∀ k : Fin 512, ridx_main_v18 (ix2 p q) k = ix2 q k :=
    fun k => funext fun a => Fin.ext (by match a with | ⟨0, _⟩ => rfl | ⟨1, _⟩ => rfl)
  rw [val_main_v26_apply, val_main_v25_apply, val_main_v24_apply, val_main_cst_4_apply, val_main_v23_apply,
    val_main_v22_apply, val_main_cst_3_apply, val_main_v21_apply, val_main_v17_apply, val_main_v15_apply,
    val_main_v13_apply, val_main_v16_apply, val_main_v14_apply, val_main_v20_apply, val_main_v19_apply,
    val_main_cst_2_apply, val_main_v18_apply]
  simp only [hx, hy, hl, hr, Ideal.hostUnary_exp_def, Ideal.mulf_def, Ideal.maximumf_def, Ideal.subf_def,
    Ideal.addf_def, Ideal.ofBits_def]
  rfl

end Cert.ReferenceIdeal.RefValue

end
-- ==== Proof.lean ====
/-
  The Gram matrix of the squared-exponential kernel with one length scale per coordinate: the tiled kernel against its
  plain reference, over the extended reals.

  Both programs first divide the two inputs, coordinate by coordinate, by the length scales (`xs`, `ys`) and take the
  squared norm of every row (`x2`, `y2`) — by the same host operations, so the two sides' arrays are literally the same
  terms. The reference then forms `exp (−½ · max (x2 p + y2 q − 2 · ⟨xs p, ys q⟩, 0))` for all `(p, q)` at once
  (`RefValue.result_eq`). The kernel tiles the 8192 × 8192 result in 64 tiles of 1024 × 1024, one per grid point, and
  fills each tile in four bands of 256 rows with the same expression on the tile's rows of `xs`, `x2` and the tile's
  columns' rows of `ys`, `y2` (`Body.out_eq`); the tiles cover the result (`GramValue.final`). So both result arrays
  are `ArdGram.gram xs ys x2 y2`. No algebraic law is used beyond reading each operation at an index — the two sides
  compute the entry in the same arrangement —, so the inputs' finiteness is never needed.
  The three frames are the generated frame runs; the idealization rewrote nothing.
-/
import proofs.«104816_j82712480187158_2_alg».proof.Defs
import proofs.«104816_j82712480187158_2_alg».proof.Proof.Gen.Kernel
import proofs.«104816_j82712480187158_2_alg».proof.Proof.Gen.Kernel.Frame
import proofs.«104816_j82712480187158_2_alg».proof.Proof.Gen.KernelIdeal
import proofs.«104816_j82712480187158_2_alg».proof.Proof.Gen.KernelIdeal.Frame
import proofs.«104816_j82712480187158_2_alg».proof.Proof.Gen.ReferenceIdeal
import proofs.«104816_j82712480187158_2_alg».proof.Proof.Gen.ReferenceIdeal.Run
import proofs.«104816_j82712480187158_2_alg».proof.Proof.Gen.ReferenceIdeal.Read
import proofs.«104816_j82712480187158_2_alg».proof.Proof.Gen.Pre_finite_inputs
import proofs.«104816_j82712480187158_2_alg».proof.Proof.KernelValue
import proofs.«104816_j82712480187158_2_alg».proof.Proof.RefIsGram
import Idealize.ShloMosaic.Adequacy
import Idealize.ShloMosaic.Init

noncomputable section

namespace Cert.Proof

open Idealize.ShloMosaic Idealize.ShloMosaic.TcCoe Idealize.SL.Sem

/-! ## The two programs' shared host prefix -/

/-- The reference's scaled input is the kernel's: the same operations on the same arrays. -/
theorem ref_scaled_left (a : FVec Ideal ⟨2, ![8192, 512]⟩ .f32) (h : FVec Ideal ⟨1, ![512]⟩ .f32) :
    Cert.ReferenceIdeal.Read.val_main_v5 (F := Ideal) a h = Cert.KernelIdeal.GramValue.scaled a h := rfl
theorem ref_scaled_right (a : FVec Ideal ⟨2, ![8192, 512]⟩ .f32) (h : FVec Ideal ⟨1, ![512]⟩ .f32) :
    Cert.ReferenceIdeal.Read.val_main_v8 (F := Ideal) a h = Cert.KernelIdeal.GramValue.scaled a h := rfl
/-- And so are the rows' squared norms. -/
theorem ref_sqnorm_left (a : FVec Ideal ⟨2, ![8192, 512]⟩ .f32) (h : FVec Ideal ⟨1, ![512]⟩ .f32) :
    Cert.ReferenceIdeal.Read.val_main_v10 (F := Ideal) a h = Cert.KernelIdeal.GramValue.sqnorm a h := rfl
theorem ref_sqnorm_right (a : FVec Ideal ⟨2, ![8192, 512]⟩ .f32) (h : FVec Ideal ⟨1, ![512]⟩ .f32) :
    Cert.ReferenceIdeal.Read.val_main_v12 (F := Ideal) a h = Cert.KernelIdeal.GramValue.sqnorm a h := rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the exact instance both result arrays are `gram` of the same scaled inputs and squared norms. -/
theorem algebraic : Cert.algebraic_KernelIdeal_ReferenceIdeal := by
  intro m ρ m' ρ' _ hagree
  refine ⟨fun c => Cert.KernelIdeal.GramValue.result m c, Cert.KernelIdeal.GramValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.result_eq, (hagree c).1, (hagree c).2.1,
    (hagree c).2.2, ref_scaled_left, ref_scaled_right, ref_sqnorm_left, ref_sqnorm_right]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
